-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x1024x1024 : Shape := ⟨4, ![8, 16, 1024, 1024]⟩
abbrev S8x16x1024x128 : Shape := ⟨4, ![8, 16, 1024, 128]⟩
abbrev S_ : Shape := ⟨0, ![]⟩

class Facts : Prop where
  bcast_S_S8x16x1024x1024 : S_.BroadcastsInDim S8x16x1024x1024 (![] : Fin 0 → Fin S8x16x1024x1024.rank)
  reducesTo_S8x16x1024x1024_S_d0_1_2_3 : S8x16x1024x1024.ReducesTo [0, 1, 2, 3] S_
  h_S_ : 0 < S_.numel
  bcast_S_S8x16x1024x128 : S_.BroadcastsInDim S8x16x1024x128 (![] : Fin 0 → Fin S8x16x1024x128.rank)
  reducesTo_S8x16x1024x128_S_d0_1_2_3 : S8x16x1024x128.ReducesTo [0, 1, 2, 3] S_

variable [Facts]

def fn {F : FTy → Type} [FloatOps F] (main_arg0 : FVec F S8x16x1024x1024 .f32) (main_arg1 : FVec F S8x16x1024x128 .f32) : IVec S_ 1 :=
  let main_v0 : FVec F S8x16x1024x1024 .f32 := Host.absf main_arg0
  let main_cst : FVec F S_ .f32 := constant S_ .f32 0x7F800000#32
  let main_v1 : FVec F S8x16x1024x1024 .f32 := broadcastInDim S8x16x1024x1024 ![] bcast_S_S8x16x1024x1024 main_cst
  let main_v2 : IVec S8x16x1024x1024 1 := cmpf .olt main_v0 main_v1
  let main_c : IVec S_ 1 := constantI S_ 1 1#1
  let main_v3 : IVec S_ 1 := (fun x v => Host.reduce IntOp.andi x v reducesTo_S8x16x1024x1024_S_d0_1_2_3 h_S_) main_v2 main_c
  let main_v4 : FVec F S8x16x1024x128 .f32 := Host.absf main_arg1
  let main_cst_0 : FVec F S_ .f32 := constant S_ .f32 0x7F800000#32
  let main_v5 : FVec F S8x16x1024x128 .f32 := broadcastInDim S8x16x1024x128 ![] bcast_S_S8x16x1024x128 main_cst_0
  let main_v6 : IVec S8x16x1024x128 1 := cmpf .olt main_v4 main_v5
  let main_c_1 : IVec S_ 1 := constantI S_ 1 1#1
  let main_v7 : IVec S_ 1 := (fun x v => Host.reduce IntOp.andi x v reducesTo_S8x16x1024x128_S_d0_1_2_3 h_S_) main_v6 main_c_1
  let main_v8 : IVec S_ 1 := andi main_v3 main_v7
  main_v8
-- ==== Kernel.lean ====
abbrev S8x16x1024x1024 : Shape := ⟨4, ![8, 16, 1024, 1024]⟩
abbrev S8x16x1024x128 : Shape := ⟨4, ![8, 16, 1024, 128]⟩
abbrev S128x1024x1024 : Shape := ⟨3, ![128, 1024, 1024]⟩
abbrev S128x1024x128 : Shape := ⟨3, ![128, 1024, 128]⟩
abbrev S1x1024x1024 : Shape := ⟨3, ![1, 1024, 1024]⟩
abbrev S1x1024x128 : Shape := ⟨3, ![1, 1024, 128]⟩
abbrev S1024x1024 : Shape := ⟨2, ![1024, 1024]⟩
abbrev S1024x128 : Shape := ⟨2, ![1024, 128]⟩

abbrev nBuf : Space → Nat
  | .hbm => 6
  | .vmem => 6
  | .smem => 0
  | _ => 0

abbrev bufTy : (tb : Table) → Fin (tcTables nBuf tb) → BufTy
  | .hbm, ⟨0, _⟩ => ⟨S8x16x1024x1024, .f32⟩
  | .hbm, ⟨1, _⟩ => ⟨S8x16x1024x128, .f32⟩
  | .hbm, ⟨2, _⟩ => ⟨S128x1024x1024, .f32⟩
  | .hbm, ⟨3, _⟩ => ⟨S128x1024x128, .f32⟩
  | .hbm, ⟨4, _⟩ => ⟨S128x1024x128, .f32⟩
  | .hbm, ⟨5, _⟩ => ⟨S8x16x1024x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | _, _ => ⟨S8x16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x16x1024x1024_S128x1024x1024 : S8x16x1024x1024.ShapeCasts S128x1024x1024
  shapeCasts_S8x16x1024x128_S128x1024x128 : S8x16x1024x128.ShapeCasts S128x1024x128
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  shapeCasts_S128x1024x128_S8x16x1024x128 : S128x1024x128.ShapeCasts S8x16x1024x128
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S128x1024x1024.size a
  hwx0_0 : ∀ i : grid0.Coords, EltTy.bits .f32 = 32 ∨ (Rect.block (s := S128x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S128x1024x128.size a
  hwx0_1 : ∀ i : grid0.Coords, EltTy.bits .f32 = 32 ∨ (Rect.block (s := S128x1024x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S128x1024x128.size a
  hwx0_2 : ∀ i : grid0.Coords, EltTy.bits .f32 = 32 ∨ (Rect.block (s := S128x1024x128) S1x1024x128.size (cc0_transform_2 i) (hinb0_2 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x16x1024x1024 : Shape := ⟨4, ![8, 16, 1024, 1024]⟩
abbrev S8x16x1024x128 : Shape := ⟨4, ![8, 16, 1024, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x16x1024x1024, .f32⟩
  | .hbm, ⟨1, _⟩ => ⟨S8x16x1024x128, .f32⟩
  | .hbm, ⟨2, _⟩ => ⟨S8x16x1024x128, .f32⟩
  | _, _ => ⟨S8x16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x16x1024x1024_S8x16x1024x128_S8x16x1024x128_3_2_2_3_01_01_wf : DotDims.WF S8x16x1024x1024 S8x16x1024x128 S8x16x1024x128 [3] [2] [2] [3] [0, 1] [0, 1]

variable [Facts₀]

def dot_S8x16x1024x1024_S8x16x1024x128_S8x16x1024x128_3_2_2_3_01_01 : DotDims S8x16x1024x1024 S8x16x1024x128 S8x16x1024x128 where
  lhsContracting := [3]
  rhsContracting := [2]
  lhsNonContracting := [2]
  rhsNonContracting := [3]
  lhsBatch := [0, 1]
  rhsBatch := [0, 1]
  wf := dot_S8x16x1024x1024_S8x16x1024x128_S8x16x1024x128_3_2_2_3_01_01_wf

class Facts : Prop extends Facts₀ where

variable [Facts]
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.Body.lean ====
/-
  What one grid point computes: the body loads a `[1, 1024, 1024]` block and a `[1, 1024, 128]` block, drops the
  leading unit axis of each, multiplies the two matrices into a zero accumulator, and puts the unit axis back. Over
  the extended reals entry `(u, q, d)` of what it stores is `∑ k, x (0, q, k) · y (0, k, d)`.
-/
import proofs.«163038_j22720376996352_2_alg».proof.Proof.Gen.KernelIdeal.Skeleton
import proofs.«163038_j22720376996352_2_alg».proof.Proof.LibMatmul
import Idealize.ShloMosaic.Lib.ValueLayout

noncomputable section

namespace Cert.KernelIdeal.Body

open Idealize.ShloMosaic Idealize.ShloMosaic.ValueIdx Cert.KernelIdeal Cert.KernelIdeal.Gen

/-- The matrix product's dimension numbers pair row `j 0` of the left matrix with column `j 1` of the right one
    along the one contracted axis. -/
theorem dot_lhs0 (j : S1024x128.Idx) (q : dot_S1024x1024_S1024x128_S1024x128_1_0_0_1_n_n.contr.Idx) :
    (dot_S1024x1024_S1024x128_S1024x128_1_0_0_1_n_n.lhsIdx j q 0).val = (j 0).val := by
  unfold DotDims.lhsIdx
  rw [dif_neg (show ¬(0 : Fin S1024x1024.rank) ∈ dot_S1024x1024_S1024x128_S1024x128_1_0_0_1_n_n.lhsBatch by decide),
    dif_pos (show (0 : Fin S1024x1024.rank) ∈ dot_S1024x1024_S1024x128_S1024x128_1_0_0_1_n_n.lhsNonContracting by decide)]
  rfl
theorem dot_lhs1 (j : S1024x128.Idx) (q : dot_S1024x1024_S1024x128_S1024x128_1_0_0_1_n_n.contr.Idx) :
    (dot_S1024x1024_S1024x128_S1024x128_1_0_0_1_n_n.lhsIdx j q 1).val = (q ⟨0, by decide⟩).val :=
  dot_S1024x1024_S1024x128_S1024x128_1_0_0_1_n_n.lhsIdx_val_of_single rfl j q
theorem dot_rhs0 (j : S1024x128.Idx) (q : dot_S1024x1024_S1024x128_S1024x128_1_0_0_1_n_n.contr.Idx) :
    (dot_S1024x1024_S1024x128_S1024x128_1_0_0_1_n_n.rhsIdx j q 0).val = (q ⟨0, by decide⟩).val :=
  dot_S1024x1024_S1024x128_S1024x128_1_0_0_1_n_n.rhsIdx_val_of_single rfl j q
theorem dot_rhs1 (j : S1024x128.Idx) (q : dot_S1024x1024_S1024x128_S1024x128_1_0_0_1_n_n.contr.Idx) :
    (dot_S1024x1024_S1024x128_S1024x128_1_0_0_1_n_n.rhsIdx j q 1).val = (j 1).val := by
  unfold DotDims.rhsIdx
  rw [dif_neg (show ¬(1 : Fin S1024x128.rank) ∈ dot_S1024x1024_S1024x128_S1024x128_1_0_0_1_n_n.rhsBatch by decide),
    dif_pos (show (1 : Fin S1024x128.rank) ∈ dot_S1024x1024_S1024x128_S1024x128_1_0_0_1_n_n.rhsNonContracting by decide)]
  rfl

/-- The stored block at `(u, q, d)`: row `q` of the loaded left matrix against column `d` of the loaded right one. -/
theorem stored_apply (x : Vec Ideal S1x1024x1024 .f32) (y : Vec Ideal S1x1024x128 .f32)
    (u : Fin 1) (q : Fin 1024) (d : Fin 128) :
    k0_pay1 (F := Ideal) x y (ix3 u q d) = ∑ k : Fin 1024, x (ix3 (0 : Fin 1) q k) * y (ix3 (0 : Fin 1) k d) := by
  unfold k0_pay1
  refine (shapeCast_ab_1ab_apply _ _ u q d).trans ?_
  refine (LibMatmul.matmul_zero_ix2 dot_S1024x1024_S1024x128_S1024x128_1_0_0_1_n_n (some .fp32) rfl rfl
    dot_lhs0 dot_lhs1 dot_rhs0 dot_rhs1 _ _ (ix2 q d)).trans ?_
  refine Finset.sum_congr rfl fun k _ => ?_
  rw [shapeCast_1ab_ab_apply, shapeCast_1ab_ab_apply]

end Cert.KernelIdeal.Body

end
-- ==== Proof.LibMergeLead.lean ====
/-
  Two leading axes merged into one, or one leading axis split into two, by a shape cast: an array `[a, b, c, d]`
  and an array `[n, c, d]` with `n = a · b` hold the same entries in the same row-major order, entry
  `(p, q, i, j)` of the first being entry `(p · b + q, i, j)` of the second. Both directions are read here at an
  index written by coordinates.
-/
import Idealize.ShloMosaic.Lib.Pipeline.Value
import Idealize.ShloMosaic.Lib.ValueIdx

noncomputable section

namespace Cert.LibMergeLead

open Idealize.ShloMosaic Idealize.ShloMosaic.ValueIdx

variable {α : Type}

/-- An `[a, b, c, d]` array cast to `[n, c, d]` reads, at `(r, i, j)` with `r = p · b + q`, the operand at
    `(p, q, i, j)`: the two row-major positions are `((p · b + q) · c + i) · d + j`. -/
theorem shapeCast_abcd_ncd_apply {a b c d n : ℕ} (x : (⟨4, ![a, b, c, d]⟩ : Shape).Idx → α)
    (h : (⟨4, ![a, b, c, d]⟩ : Shape).ShapeCasts ⟨3, ![n, c, d]⟩) (p : Fin a) (q : Fin b) (r : Fin n)
    (hr : r.val = p.val * b + q.val) (i : Fin c) (j : Fin d) :
    shapeCast ⟨3, ![n, c, d]⟩ x h (ix3 r i j) = x (ix4 p q i j) :=
  shapeCast_apply x h _ _ (by
    rw [Shape.rowMajor_val_four, Shape.rowMajor_val_three]
    show ((p.val * b + q.val) * c + i.val) * d + j.val = (r.val * c + i.val) * d + j.val
    rw [hr])

/-- An `[n, c, d]` array cast to `[a, b, c, d]` reads, at `(p, q, i, j)`, the operand at `(r, i, j)` with
    `r = p · b + q`. -/
theorem shapeCast_ncd_abcd_apply {a b c d n : ℕ} (x : (⟨3, ![n, c, d]⟩ : Shape).Idx → α)
    (h : (⟨3, ![n, c, d]⟩ : Shape).ShapeCasts ⟨4, ![a, b, c, d]⟩) (p : Fin a) (q : Fin b) (r : Fin n)
    (hr : r.val = p.val * b + q.val) (i : Fin c) (j : Fin d) :
    shapeCast ⟨4, ![a, b, c, d]⟩ x h (ix4 p q i j) = x (ix3 r i j) :=
  shapeCast_apply x h _ _ (by
    rw [Shape.rowMajor_val_four, Shape.rowMajor_val_three]
    show (r.val * c + i.val) * d + j.val = ((p.val * b + q.val) * c + i.val) * d + j.val
    rw [hr])

end Cert.LibMergeLead

end
-- ==== Proof.Spec.lean ====
/-
  The product of 128 independent pairs of matrices, stated twice: over the pairs counted by two numbers
  `(b, h)` with `b < 8`, `h < 16` — arrays `[8, 16, 1024, 1024]` and `[8, 16, 1024, 128]` — and over the
  pairs counted by the one number `b · 16 + h < 128` — arrays `[128, 1024, 1024]` and `[128, 1024, 128]`.
  Entry `(q, d)` of pair number `r`'s product is `∑ k, x r q k · y r k d` over the extended reals. Laying the two
  operands out by the one number, multiplying, and laying the result out by the two numbers again is the product
  over the two numbers: each step moves entries without changing them, and the sum over `k` is the same sum.
-/
import proofs.«163038_j22720376996352_2_alg».proof.Proof.LibMergeLead
import Idealize.ShloMosaic.PureOps.Ideal.Laws

noncomputable section

namespace Cert.BatchGemm

open Idealize.ShloMosaic Idealize.ShloMosaic.ValueIdx

abbrev Lhs4 : Shape := ⟨4, ![8, 16, 1024, 1024]⟩
abbrev Rhs4 : Shape := ⟨4, ![8, 16, 1024, 128]⟩
abbrev Lhs3 : Shape := ⟨3, ![128, 1024, 1024]⟩
abbrev Rhs3 : Shape := ⟨3, ![128, 1024, 128]⟩

/-- The products over the pairs `(b, h)`: entry `(b, h, q, d)` is `∑ k, x b h q k · y b h k d`. -/
def prod4 (x : Lhs4.Idx → EReal) (y : Rhs4.Idx → EReal) : Rhs4.Idx → EReal :=
  fun i => ∑ k : Fin 1024, x (ix4 (i 0) (i 1) (i 2) k) * y (ix4 (i 0) (i 1) k (i 3))

/-- The products over the pairs counted by one number: entry `(r, q, d)` is `∑ k, x r q k · y r k d`. -/
def prod3 (x : Lhs3.Idx → EReal) (y : Rhs3.Idx → EReal) : Rhs3.Idx → EReal :=
  fun i => ∑ k : Fin 1024, x (ix3 (i 0) (i 1) k) * y (ix3 (i 0) k (i 2))

/-- Pair `(b, h)` is pair number `b · 16 + h`. -/
def pair (b : Fin 8) (h : Fin 16) : Fin 128 := ⟨b.val * 16 + h.val, by omega⟩

/-- Merging the two leading axes of both operands, multiplying pair by pair, and splitting the leading axis of the
    result again gives the product over the pairs `(b, h)`. -/
theorem split_prod3_merge (x : Lhs4.Idx → EReal) (y : Rhs4.Idx → EReal)
    (hx : Lhs4.ShapeCasts Lhs3) (hy : Rhs4.ShapeCasts Rhs3) (ho : Rhs3.ShapeCasts Rhs4) :
    shapeCast Rhs4 (prod3 (shapeCast Lhs3 x hx) (shapeCast Rhs3 y hy)) ho = prod4 x y := by
  funext i
  obtain ⟨b, h, q, d, rfl⟩ : ∃ (b : Fin 8) (h : Fin 16) (q : Fin 1024) (d : Fin 128), i = ix4 b h q d :=
    ⟨i 0, i 1, i 2, i 3, eq_ix4 i⟩
  refine (LibMergeLead.shapeCast_ncd_abcd_apply _ ho b h (pair b h) rfl q d).trans ?_
  show ∑ k : Fin 1024, shapeCast Lhs3 x hx (ix3 (pair b h) q k) * shapeCast Rhs3 y hy (ix3 (pair b h) k d)
    = ∑ k : Fin 1024, x (ix4 b h q k) * y (ix4 b h k d)
  refine Finset.sum_congr rfl fun k _ => ?_
  rw [LibMergeLead.shapeCast_abcd_ncd_apply x hx b h (pair b h) rfl q k,
    LibMergeLead.shapeCast_abcd_ncd_apply y hy b h (pair b h) rfl k d]

end Cert.BatchGemm

end
-- ==== Proof.Blocks.lean ====
/-
  From grid points to the whole array. Point `t` of the 128 fetches block `(t, 0, 0)` of each operand — matrix
  number `t` — and writes block `(t, 0, 0)` of the result: the product of those two matrices. The 128 result
  blocks tile the `[128, 1024, 128]` array, so after the run it holds the products over the pairs counted by one
  number, of the two operand arrays as the region finds them.
-/
import proofs.«163038_j22720376996352_2_alg».proof.Proof.Gen.KernelIdeal.Frame
import proofs.«163038_j22720376996352_2_alg».proof.Proof.Body
import proofs.«163038_j22720376996352_2_alg».proof.Proof.Spec
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

theorem hz : (![0, 0, 0] : Fin 3 → Nat) = fun _ => 0 := funext fun a => by fin_cases a <;> rfl

/-- Every window's block at point `t` is block `(t, 0, 0)` of its array. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0) :=
  (by decide +kernel : ∀ t : Fin grid0.N, _)

/-- One block of the result against the whole arrays: if the loaded blocks are matrix number `r` of `A` and of `B`,
    what the body stores at `j` is the product over pairs at the array index `i` lying over `j` in block `r`. -/
theorem stored_eq_prod3 (A : BatchGemm.Lhs3.Idx → EReal) (B : BatchGemm.Rhs3.Idx → EReal)
    (x : Vec Ideal S1x1024x1024 .f32) (y : Vec Ideal S1x1024x128 .f32) (r : Fin 128)
    (hx : ∀ (q : Fin 1024) (k : Fin 1024), x (ix3 (0 : Fin 1) q k) = A (ix3 r q k))
    (hy : ∀ (k : Fin 1024) (d : Fin 128), y (ix3 (0 : Fin 1) k d) = B (ix3 r k d))
    (j : S1x1024x128.Idx) (i : BatchGemm.Rhs3.Idx)
    (h0 : (i 0).val = r.val) (h1 : (i 1).val = (j 1).val) (h2 : (i 2).val = (j 2).val) :
    k0_pay1 (F := Ideal) x y j = BatchGemm.prod3 A B i := by
  obtain ⟨u, q, d, rfl⟩ : ∃ (u : Fin 1) (q : Fin 1024) (d : Fin 128), j = ix3 u q d := ⟨j 0, j 1, j 2, eq_ix3 j⟩
  obtain rfl : i = ix3 r q d := by
    rw [eq_ix3 i]
    congr 1
    · exact Fin.ext h0
    · exact Fin.ext h1
    · exact Fin.ext h2
  rw [Body.stored_apply]
  show _ = ∑ k : Fin 1024, A (ix3 r q k) * B (ix3 r k d)
  exact Finset.sum_congr rfl fun k _ => by rw [hx, hy]

/-- What point `t` writes back is block `t` of the products of the operand arrays as the region finds them. -/
theorem flushed_eq (c : Dev nD) (t : Fin cfg0.N) :
    (dats m 0 c).flushed 2 t
      = ((cfg0.win 2).blk t).view.read (Elt Ideal) (BatchGemm.prod3 (V m c main_v0) (V m c main_v1)) := by
  show (cfg0.win 2).cut (grid0.coords t) ((dats m 0 c).after 2 t) = _
  rw [after0_2]
  unfold out0_2
  rw [View.canon_unit_zero hz]
  simp only [View.ld_unit_zero (S := S1x1024x1024) hz, View.ld_unit_zero (S := S1x1024x128) hz]
  obtain ⟨⟨a0, a1, a2⟩, ⟨b0, b1, b2⟩, ⟨c0, c1, c2⟩⟩ := idx_facts t
  have ht : t.val < 128 := lt_of_lt_of_eq t.isLt (N_0 : cfg0.N = 128)
  funext j
  refine stored_eq_prod3 (V m c main_v0) (V m c main_v1) (iblk m c 0 t) (iblk m c 1 t) ⟨t.val, ht⟩ ?_ ?_ j
    (((cfg0.win 2).blk t).view.emb j) ?_ ?_ ?_
  · intro q k
    show V m c main_v0 (((cfg0.win 0).blk t).view.emb (ix3 (0 : Fin 1) q k)) = V m c main_v0 (ix3 ⟨t.val, ht⟩ q k)
    refine congrArg (V m c main_v0) (funext fun a => Fin.ext ?_)
    match a with
    | ⟨0, _⟩ => show win0_0.index t (0 : Fin 3) * 1 + 1 * 0 = t.val; omega
    | ⟨1, _⟩ => show win0_0.index t (1 : Fin 3) * 1024 + 1 * q.val = q.val; omega
    | ⟨2, _⟩ => show win0_0.index t (2 : Fin 3) * 1024 + 1 * k.val = k.val; omega
  · intro k d
    show V m c main_v1 (((cfg0.win 1).blk t).view.emb (ix3 (0 : Fin 1) k d)) = V m c main_v1 (ix3 ⟨t.val, ht⟩ k d)
    refine congrArg (V m c main_v1) (funext fun a => Fin.ext ?_)
    match a with
    | ⟨0, _⟩ => show win0_1.index t (0 : Fin 3) * 1 + 1 * 0 = t.val; omega
    | ⟨1, _⟩ => show win0_1.index t (1 : Fin 3) * 1024 + 1 * k.val = k.val; omega
    | ⟨2, _⟩ => show win0_1.index t (2 : Fin 3) * 128 + 1 * d.val = d.val; omega
  · show win0_2.index t (0 : Fin 3) * 1 + 1 * (j 0).val = t.val
    have : (j 0).val < 1 := (j 0).isLt
    omega
  · show win0_2.index t (1 : Fin 3) * 1024 + 1 * (j 1).val = (j 1).val; omega
  · show win0_2.index t (2 : Fin 3) * 128 + 1 * (j 2).val = (j 2).val; omega

/-- An index of the result array is in point `t`'s block iff each coordinate is in the block's range on its axis. -/
theorem mem_blk (t : Fin cfg0.N) (i : S128x1024x128.Idx) :
    i ∈ ((cfg0.win 2).blk t).view.set ↔ ∀ a : Fin 3, win0_2.index t a * S1x1024x128.size a ≤ (i a).val
      ∧ (i a).val < win0_2.index t a * S1x1024x128.size a + S1x1024x128.size a := by
  show i ∈ ((View.whole main_v2).slice (win0_2.rect t)).set ↔ _
  rw [View.set_slice_whole, Rect.mem_set_unit]
  exact Iff.rfl

/-- Entry `(r, q, d)` of the result array lies in point `r`'s block: the blocks tile the array. -/
theorem cover (i : S128x1024x128.Idx) :
    ∃ t : Fin cfg0.N, (cfg0.win 2).flush t = true ∧ i ∈ ((cfg0.win 2).blk t).view.set := by
  have hi0 : (i 0).val < 128 := (i 0).isLt
  have hi1 : (i 1).val < 1024 := (i 1).isLt
  have hi2 : (i 2).val < 128 := (i 2).isLt
  have ht : (i 0).val < cfg0.N := lt_of_lt_of_eq hi0 (N_0 : cfg0.N = 128).symm
  obtain ⟨-, -, ⟨c0, c1, c2⟩⟩ := idx_facts ⟨(i 0).val, ht⟩
  have c0' : win0_2.index ⟨(i 0).val, ht⟩ (0 : Fin 3) = (i 0).val := c0
  refine ⟨⟨(i 0).val, ht⟩, flush0_2 _, ?_⟩
  rw [mem_blk]
  intro a
  match a with
  | ⟨0, _⟩ => show win0_2.index ⟨(i 0).val, ht⟩ (0 : Fin 3) * 1 ≤ (i 0).val
                ∧ (i 0).val < win0_2.index ⟨(i 0).val, ht⟩ (0 : Fin 3) * 1 + 1
              omega
  | ⟨1, _⟩ => show win0_2.index ⟨(i 0).val, ht⟩ (1 : Fin 3) * 1024 ≤ (i 1).val
                ∧ (i 1).val < win0_2.index ⟨(i 0).val, ht⟩ (1 : Fin 3) * 1024 + 1024
              omega
  | ⟨2, _⟩ => show win0_2.index ⟨(i 0).val, ht⟩ (2 : Fin 3) * 128 ≤ (i 2).val
                ∧ (i 2).val < win0_2.index ⟨(i 0).val, ht⟩ (2 : Fin 3) * 128 + 128
              omega

/-- The result array after the run: the products, pair by pair, of the operand arrays as the region finds them. -/
theorem final (c : Dev nD) :
    (dats m 0 c).arrAt 2 cfg0.N = BatchGemm.prod3 (V m c main_v0) (V m c main_v1) :=
  (dats m 0 c).arrAt_eq_of_cover 2 (BatchGemm.prod3 (V m c main_v0) (V m c main_v1))
    (fun t _ => flushed_eq m c t) (cover)

end Cert.KernelIdeal.Blocks

end
-- ==== Proof.Whole.lean ====
/-
  The kernel's program end to end: two host lines merge the leading axes `(8, 16)` of each argument into `128`,
  the region multiplies the 128 pairs of matrices, and a last host line splits the leading axis of the result back
  into `(8, 16)`. So the result array ends holding the products over the pairs `(b, h)` of the two arguments.
-/
import proofs.«163038_j22720376996352_2_alg».proof.Proof.Blocks
import Idealize.ShloMosaic.Lib.StableHlo.Run

noncomputable section

namespace Cert.KernelIdeal.Whole

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ) (ρ : Dev nD → PrngReg)

/-- The region finds the left operand array at the first argument with its two leading axes merged. -/
theorem V_main_v0 (c : Dev nD) :
    (V m c main_v0 : S128x1024x1024.Idx → EReal)
      = shapeCast S128x1024x1024 (m ((c : Thread nD τ).loc main_arg0)) Gen.shapeCasts_S8x16x1024x1024_S128x1024x1024 := by
  show StableHlo.after hostOps0 (fun b => m (c, b)) (Proc.devRef .tc main_v0) = _
  after_results
  rfl

/-- The region finds the right operand array at the second argument with its two leading axes merged. -/
theorem V_main_v1 (c : Dev nD) :
    (V m c main_v1 : S128x1024x128.Idx → EReal)
      = shapeCast S128x1024x128 (m ((c : Thread nD τ).loc main_arg1)) Gen.shapeCasts_S8x16x1024x128_S128x1024x128 := by
  show StableHlo.after hostOps0 (fun b => m (c, b)) (Proc.devRef .tc main_v1) = _
  after_results
  rfl

/-- The last host line leaves the region's result array with its leading axis split. -/
theorem tail_main_v3 (c : Dev nD) :
    (Pipeline.afterTail₀ cfgs (dats m) 0 (V0 m) [hostOps1] c main_v3 : S8x16x1024x128.Idx → EReal)
      = shapeCast S8x16x1024x128 ((dats m 0 c).arrAt 2 cfg0.N) Gen.shapeCasts_S128x1024x128_S8x16x1024x128 := by
  unfold Pipeline.afterTail₀
  show StableHlo.after hostOps1 _ (Proc.devRef .tc main_v3) = _
  after_results
  exact congrArg (fun A : S128x1024x128.Idx → EReal => shapeCast S8x16x1024x128 A Gen.shapeCasts_S128x1024x128_S8x16x1024x128)
    (Pipeline.withArrays_arr spec0 launch0.win.arr_inj c (V0 m c) (fun w => (dats m 0 c).arrAt w cfg0.N) 2)

/-- The result array after the whole program: the products over the pairs `(b, h)` of the two arguments. -/
theorem result (c : Dev nD) :
    (Pipeline.afterTail₀ cfgs (dats m) 0 (V0 m) [hostOps1] c main_v3 : S8x16x1024x128.Idx → EReal)
      = BatchGemm.prod4 (m ((c : Thread nD τ).loc main_arg0)) (m ((c : Thread nD τ).loc main_arg1)) := by
  rw [tail_main_v3, Blocks.final, V_main_v0, V_main_v1]
  exact BatchGemm.split_prod3_merge _ _ _ _ _

/-- Every weakly fair execution of the kernel's program terminates with the result array at the products over the
    pairs `(b, h)` of the two arguments, and the arguments as they were. -/
theorem run : θ_run defs (onTc (τ := τ) (main (F := Ideal))) ⟨m, fun _ => 0, ρ⟩ fun r => ∀ c : Dev nD,
      r.2.mem ((c.tc : Thread nD τ).loc main_v3)
        = BatchGemm.prod4 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (result m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Whole

end
-- ==== Proof.Reference.lean ====
/-
  The reference is one batched contraction: batch axes `(b, h)`, the last axis of the left operand contracted with
  the third axis of the right one. Over the extended reals its entry `(b, h, q, d)` is
  `∑ k, x b h q k · y b h k d`, the product over the pairs `(b, h)`.
-/
import proofs.«163038_j22720376996352_2_alg».proof.Proof.Gen.ReferenceIdeal.Read
import proofs.«163038_j22720376996352_2_alg».proof.Proof.Spec

noncomputable section

namespace Cert.ReferenceIdeal.RefValue

open Idealize.ShloMosaic Idealize.ShloMosaic.ValueIdx Cert.ReferenceIdeal Cert.ReferenceIdeal.Read

/-- The contraction, index by index, is the product over the pairs `(b, h)`. -/
theorem contraction_eq (x : (⟨S8x16x1024x1024, .f32⟩ : BufTy).Contents (Elt Ideal))
    (y : (⟨S8x16x1024x128, .f32⟩ : BufTy).Contents (Elt Ideal)) :
    val_main_v0 (F := Ideal) x y = BatchGemm.prod4 x y := by
  funext i
  rw [val_main_v0_apply]
  have el : ∀ k : Fin 1024, lidx_main_v0 i k = ix4 (i 0) (i 1) (i 2) k := fun k => funext fun a => Fin.ext (by
    match a with | ⟨0, _⟩ => rfl | ⟨1, _⟩ => rfl | ⟨2, _⟩ => rfl | ⟨3, _⟩ => rfl)
  have er : ∀ k : Fin 1024, ridx_main_v0 i k = ix4 (i 0) (i 1) k (i 3) := fun k => funext fun a => Fin.ext (by
    match a with | ⟨0, _⟩ => rfl | ⟨1, _⟩ => rfl | ⟨2, _⟩ => rfl | ⟨3, _⟩ => rfl)
  exact Finset.sum_congr rfl fun k _ => by rw [el, er]; rfl

end Cert.ReferenceIdeal.RefValue

end
-- ==== Proof.lean ====
/-
  A batched matrix product against one batched contraction. The kernel merges the leading axes `(8, 16)` of both
  arguments into `128`, multiplies matrix number `r` of the first (`[1024, 1024]`) by matrix number `r` of the
  second (`[1024, 128]`) at grid point `r`, and splits the leading axis of the result again; the reference
  contracts the last axis of the first argument with the third of the second, batched over `(b, h)`. Over the
  extended reals both results are, at `(b, h, q, d)`, the sum over `k` of `x b h q k · y b h k d`: the same
  sum in the same order, so no law of arithmetic beyond the sum itself is used and the inputs' finiteness is never
  opened. The idealization rewrote nothing, so the kernel's idealized text is its own text read over the extended reals.
-/
import proofs.«163038_j22720376996352_2_alg».proof.Defs
import proofs.«163038_j22720376996352_2_alg».proof.Proof.Gen.Kernel
import proofs.«163038_j22720376996352_2_alg».proof.Proof.Gen.Kernel.Skeleton
import proofs.«163038_j22720376996352_2_alg».proof.Proof.Gen.Kernel.Launch
import proofs.«163038_j22720376996352_2_alg».proof.Proof.Gen.Kernel.Points
import proofs.«163038_j22720376996352_2_alg».proof.Proof.Gen.Kernel.Frame
import proofs.«163038_j22720376996352_2_alg».proof.Proof.Gen.KernelIdeal
import proofs.«163038_j22720376996352_2_alg».proof.Proof.Gen.KernelIdeal.Skeleton
import proofs.«163038_j22720376996352_2_alg».proof.Proof.Gen.KernelIdeal.Launch
import proofs.«163038_j22720376996352_2_alg».proof.Proof.Gen.KernelIdeal.Points
import proofs.«163038_j22720376996352_2_alg».proof.Proof.Gen.KernelIdeal.Frame
import proofs.«163038_j22720376996352_2_alg».proof.Proof.Gen.ReferenceIdeal
import proofs.«163038_j22720376996352_2_alg».proof.Proof.Gen.Pre_finite_inputs
import proofs.«163038_j22720376996352_2_alg».proof.Proof.Gen.ReferenceIdeal.Run
import proofs.«163038_j22720376996352_2_alg».proof.Proof.Gen.ReferenceIdeal.Read
import proofs.«163038_j22720376996352_2_alg».proof.Proof.Whole
import proofs.«163038_j22720376996352_2_alg».proof.Proof.Reference
import Idealize.ShloMosaic.Adequacy
import Idealize.ShloMosaic.Init

noncomputable section

namespace Cert.Proof

open Idealize.ShloMosaic Idealize.ShloMosaic.TcCoe Idealize.SL.Sem

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments, the kernel's result array ends at the products over the pairs
    `(b, h)` of its arguments, and the reference's at the batched contraction of the same arguments, which is those
    products index by index. -/
theorem algebraic : Cert.algebraic_KernelIdeal_ReferenceIdeal := by
  intro m ρ m' ρ' _ hagree
  refine ⟨fun c => BatchGemm.prod4 (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v0_eq]
  exact Cert.ReferenceIdeal.RefValue.contraction_eq _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
